-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x256 .f32) (main_arg3 : FVec F S256 .f32) (main_arg4 : FVec F S256x128 .f32) (main_arg5 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 89
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x128, .f32⟩
  | .local _ .vmem, ⟨8, _⟩ => ⟨S2000x128, .f32⟩
  | .local _ .vmem, ⟨9, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 122
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S850000, .f32⟩
  | .hbm, ⟨71, _⟩ => ⟨S_, .f32⟩
  | .hbm, ⟨72, _⟩ => ⟨S50000, .f32⟩
  | .hbm, ⟨73, _⟩ => ⟨S850000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .i1⟩
  | .hbm, ⟨78, _⟩ => ⟨S50000, .f32⟩
  | .hbm, ⟨79, _⟩ => ⟨S_, .f32⟩
  | .hbm, ⟨80, _⟩ => ⟨S_, .f32⟩
  | .hbm, ⟨81, _⟩ => ⟨S50000, .f32⟩
  | .hbm, ⟨82, _⟩ => ⟨S50000, .f32⟩
  | .hbm, ⟨83, _⟩ => ⟨S_, .i32⟩
  | .hbm, ⟨84, _⟩ => ⟨S850000, .i32⟩
  | .hbm, ⟨85, _⟩ => ⟨S850000, .i1⟩
  | .hbm, ⟨86, _⟩ => ⟨S_, .i32⟩
  | .hbm, ⟨87, _⟩ => ⟨S850000, .i32⟩
  | .hbm, ⟨88, _⟩ => ⟨S850000, .i32⟩
  | .hbm, ⟨89, _⟩ => ⟨S850000, .i32⟩
  | .hbm, ⟨90, _⟩ => ⟨S850000x1, .i32⟩
  | .hbm, ⟨91, _⟩ => ⟨S850000, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000, .f32⟩
  | .hbm, ⟨101, _⟩ => ⟨S850000, .f32⟩
  | .hbm, ⟨102, _⟩ => ⟨S50000x128, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x128, .f32⟩
  | .hbm, ⟨112, _⟩ => ⟨S850000x1, .f32⟩
  | .hbm, ⟨113, _⟩ => ⟨S850000x128, .f32⟩
  | .hbm, ⟨114, _⟩ => ⟨S850000x128, .f32⟩
  | .hbm, ⟨115, _⟩ => ⟨S_, .f32⟩
  | .hbm, ⟨116, _⟩ => ⟨S50000x128, .f32⟩
  | .hbm, ⟨117, _⟩ => ⟨S850000x1, .i32⟩
  | .hbm, ⟨118, _⟩ => ⟨S50000x128, .f32⟩
  | .hbm, ⟨119, _⟩ => ⟨S1x128, .f32⟩
  | .hbm, ⟨120, _⟩ => ⟨S50000x128, .f32⟩
  | .hbm, ⟨121, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  The graph-convolution network both programs compute, written once as pure functions of the argument arrays at the
  ideal instance.

  With `src`, `dst` the edge lists extended by one self loop per node, `deg` the number of edges into a node,
  `dinv = deg^(-1/2)` where `deg > 0` and `0` elsewhere, and `norm e = dinv (src e) · dinv (dst e)`, one layer sends a node
  table `h` to the table whose row `v` is the sum over the edges `e` into `v` of `norm e · h (src e)`, plus a bias row.
  The network is

      layer₂ (layer₁ (x · W1) · W2),   layer₁ = relu ∘ (aggregate + b1),   layer₂ = aggregate + b2,

  where `·` is the plain matrix product, written here entry by entry as a sum over the contracted axis (`mm`).  The
  aggregation steps are kept as the host operations they are (a gather of rows, a product with the broadcast edge
  weights, a scatter with addition): both programs apply the same operations to the same operands there, so they are
  never opened; the only place where the two programs differ is how the two matrix products are computed.
-/
import proofs.«181029_j59193239273691_1_alg».proof.Proof.Gen.KernelIdeal
import Idealize.ShloMosaic.Lib.ValueIdx
import Idealize.ShloMosaic.PureOps.Ideal

noncomputable section

namespace Cert.Gcn

open Idealize.ShloMosaic Idealize.ShloMosaic.ValueIdx
open Cert.KernelIdeal Cert.KernelIdeal.Facts₀

/-- The plain matrix product, entry by entry: entry `(p, j)` is the sum over `q` of `l (p, q) · r (q, j)`. -/
def mm {m k n : Nat} (l : (⟨2, ![m, k]⟩ : Shape).Idx → EReal) (r : (⟨2, ![k, n]⟩ : Shape).Idx → EReal) :
    (⟨2, ![m, n]⟩ : Shape).Idx → EReal :=
  fun i => ∑ q : Fin k, l (ix2 (i 0) q) * r (ix2 q (i 1))

theorem mm_ix2 {m k n : Nat} (l : (⟨2, ![m, k]⟩ : Shape).Idx → EReal) (r : (⟨2, ![k, n]⟩ : Shape).Idx → EReal)
    (p : Fin m) (j : Fin n) : mm l r (ix2 p j) = ∑ q : Fin k, l (ix2 p q) * r (ix2 q j) := rfl

/-- The node numbers `0 … 49999`: the self loops' two ends. -/
def loops : IVec S50000 32 := iotaInDim S50000 32 0

/-- Row `r` of the edge table as a vector of 800000 node numbers. -/
def edgeRow0 (ei : IVec S2x800000 32) : IVec S800000 32 :=
  shapeCast _ (extractStridedSlice S1x800000 ![0, 0] ei slices_S2x800000_S1x800000_0_0) shapeCasts_S1x800000_S800000
def edgeRow1 (ei : IVec S2x800000 32) : IVec S800000 32 :=
  shapeCast _ (extractStridedSlice S1x800000 ![1, 0] ei slices_S2x800000_S1x800000_1_0) shapeCasts_S1x800000_S800000

/-- The sources of the 850000 edges: the table's first row, then the self loops. -/
def src (ei : IVec S2x800000 32) : IVec S850000 32 :=
  concatenate S850000 0 [⟨S800000, edgeRow0 ei⟩, ⟨S50000, loops⟩] concatenates_S800000_S50000_S850000_d0
/-- The destinations of the 850000 edges: the table's second row, then the self loops. -/
def dst (ei : IVec S2x800000 32) : IVec S850000 32 :=
  concatenate S850000 0 [⟨S800000, edgeRow1 ei⟩, ⟨S50000, loops⟩] concatenates_S800000_S50000_S850000_d0

/-- A vector of node numbers as the start indices of a row gather: a negative number is counted from the end, and the
    vector becomes a column. -/
def rowsOf (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The number of edges into each node: ones scattered with addition into zeros along the destinations `d`. -/
def degOf (d : IVec S850000 32) : FVec Ideal S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 d)
    (broadcastInDim S850000 ![] bcast_S_S850000 (constant S_ .f32 0x3F800000#32))

/-- `deg^(-1/2)` where `deg > 0`, zero elsewhere. -/
def dinvOf (d : IVec S850000 32) : FVec Ideal S50000 .f32 :=
  select (cmpf .ogt (degOf d) (broadcastInDim S50000 ![] bcast_S_S50000 (constant S_ .f32 0x00000000#32)))
    (Host.rsqrt (degOf d))
    (broadcastInDim S50000 ![] bcast_S_S50000 (id (constant S_ .f32 0x00000000#32)))

/-- The weight of each edge from a node table `di`: `di` at its source times `di` at its destination. -/
def normFrom (di : FVec Ideal S50000 .f32) (s d : IVec S850000 32) : FVec Ideal S850000 .f32 :=
  mulf (Host.gather gather_S50000_S850000x1_S850000_n_0_n_n_0_1_1 di (rowsOf s))
    (Host.gather gather_S50000_S850000x1_S850000_n_0_n_n_0_1_1 di (rowsOf d))

/-- The weight of each edge: `dinv` at its source times `dinv` at its destination. -/
def normOf (s d : IVec S850000 32) : FVec Ideal S850000 .f32 := normFrom (dinvOf d) s d

/-- The edge weights of the graph. -/
def norm (ei : IVec S2x800000 32) : FVec Ideal S850000 .f32 := normOf (src ei) (dst ei)

/-- The weighted neighbourhood sums of a 256-column node table `h` over edges with sources `s`, destinations `d` and
    weights `w` — the rows of `h` gathered along `s`, each multiplied by its edge's weight, summed into the rows `d`
    names — with the bias row added to every row. -/
def sum1 (s d : IVec S850000 32) (w : FVec Ideal S850000 .f32) (b1 : FVec Ideal S256 .f32) (h : FVec Ideal S50000x256 .f32) :
    FVec Ideal S50000x256 .f32 :=
  addf
    (Host.scatterAdd scatter_S50000x256_S850000x1_S850000x256_1_0_0_1
      (broadcastInDim S50000x256 ![] bcast_S_S50000x256 (constant S_ .f32 0x00000000#32))
      (broadcastInDim S850000x1 ![0] bcast_S850000_S850000x1_0 d)
      (mulf (Host.gather gather_S50000x256_S850000x1_S850000x256_1_0_n_n_0_1_1256 h (rowsOf s))
        (broadcastInDim S850000x256 ![0, 1] bcast_S850000x1_S850000x256_0_1
          (broadcastInDim S850000x1 ![0] bcast_S850000_S850000x1_0 w))))
    (broadcastInDim S50000x256 ![0, 1] bcast_S1x256_S50000x256_0_1 (broadcastInDim S1x256 ![1] bcast_S256_S1x256_1 b1))

/-- One aggregation of a 256-column node table `h` over the edges: those sums and the bias, then the rectifier. -/
def agg1 (s d : IVec S850000 32) (w : FVec Ideal S850000 .f32) (b1 : FVec Ideal S256 .f32) (h : FVec Ideal S50000x256 .f32) :
    FVec Ideal S50000x256 .f32 :=
  maximumf (sum1 s d w b1 h) (broadcastInDim S50000x256 ![] bcast_S_S50000x256 (constant S_ .f32 0x00000000#32))

/-- The same aggregation of a 128-column node table, the bias row added, no rectifier. -/
def agg2 (s d : IVec S850000 32) (w : FVec Ideal S850000 .f32) (b2 : FVec Ideal S128 .f32) (h : FVec Ideal S50000x128 .f32) :
    FVec Ideal S50000x128 .f32 :=
  addf
    (Host.scatterAdd scatter_S50000x128_S850000x1_S850000x128_1_0_0_1
      (broadcastInDim S50000x128 ![] bcast_S_S50000x128 (constant S_ .f32 0x00000000#32))
      (broadcastInDim S850000x1 ![0] bcast_S850000_S850000x1_0 d)
      (mulf (Host.gather gather_S50000x128_S850000x1_S850000x128_1_0_n_n_0_1_1128 h (rowsOf s))
        (broadcastInDim S850000x128 ![0, 1] bcast_S850000x1_S850000x128_0_1
          (broadcastInDim S850000x1 ![0] bcast_S850000_S850000x1_0 w))))
    (broadcastInDim S50000x128 ![0, 1] bcast_S1x128_S50000x128_0_1 (broadcastInDim S1x128 ![1] bcast_S128_S1x128_1 b2))

/-- The first layer after its dense transform `h`: the aggregation over the graph's edges, bias and rectifier. -/
def layer1 (ei : IVec S2x800000 32) (b1 : FVec Ideal S256 .f32) (h : FVec Ideal S50000x256 .f32) : FVec Ideal S50000x256 .f32 :=
  agg1 (src ei) (dst ei) (norm ei) b1 h

/-- The second layer after its dense transform `h`: the aggregation over the graph's edges and the bias. -/
def layer2 (ei : IVec S2x800000 32) (b2 : FVec Ideal S128 .f32) (h : FVec Ideal S50000x128 .f32) : FVec Ideal S50000x128 .f32 :=
  agg2 (src ei) (dst ei) (norm ei) b2 h

/-- The network: both programs' result, as one function of the six argument arrays. -/
def net (x : FVec Ideal S50000x512 .f32) (ei : IVec S2x800000 32) (W1 : FVec Ideal S512x256 .f32) (b1 : FVec Ideal S256 .f32)
    (W2 : FVec Ideal S256x128 .f32) (b2 : FVec Ideal S128 .f32) : FVec Ideal S50000x128 .f32 :=
  layer2 ei b2 (mm (layer1 ei b1 (mm x W1)) W2)

end Cert.Gcn

end
-- ==== Proof.KRun.lean ====
/-
  The idealized kernel's run with its result named.

  The program is eight segments: three stretches of host operations, the first pipeline, two more stretches, the second
  pipeline, a last stretch.  The buffer contents at each boundary are a fold from the launch memory — a stretch applies
  its operations in order, a pipeline leaves its result array at what its 25 write-backs leave and every other buffer as
  it was.  Every weakly fair execution terminates with every unscoped buffer at the last boundary's contents; read at
  the result buffer this names the program's result, and read at the six arguments it gives them back unchanged.
-/
import proofs.«181029_j59193239273691_1_alg».proof.Proof.Gen.KernelIdeal.Frame

set_option maxRecDepth 16384

noncomputable section

namespace Cert.Gcn.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the six argument arrays as launched. -/
theorem run_value : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.Gcn.KRun

end
-- ==== Proof.Stretch.lean ====
/-
  The host operations between the kernel's pipelines, one stretch at a time, over ANY contents `V` of the buffers
  when the stretch starts: what each buffer a later segment reads holds afterwards, as the network's functions
  (Spec.lean) of what the stretch read.  Stated over a variable `V`, so that nothing here ever opens the contents the
  program really has at that boundary (a fold through everything before it).

  The two outlined functions (`where`, `relu`) are stretches of their own: three operations each, on buffers typed
  through the call; they are read separately from the long stretches around them.
-/
import proofs.«181029_j59193239273691_1_alg».proof.Proof.Gen.KernelIdeal.Launch
import proofs.«181029_j59193239273691_1_alg».proof.Proof.Spec
import Idealize.ShloMosaic.Lib.StableHlo.Run

set_option maxRecDepth 16384

noncomputable section

namespace Cert.Gcn.Stretch

open Idealize.ShloMosaic Idealize.ShloMosaic.TcCoe Idealize.SL.Sem Idealize.ShloMosaic.StableHlo
open Cert.KernelIdeal Cert.KernelIdeal.Gen Cert.Gcn

variable (V : Valuation τ sig (Elt Ideal))

/-! ## The first stretch: edge lists, degrees -/

theorem first_src : after hostOps0 V (Proc.devRef .tc main_v3) = src (V (Proc.devRef .tc main_arg1)) := by
  dsimp only [hostOps0]
  after_results <;> rfl
theorem first_dst : after hostOps0 V (Proc.devRef .tc main_v6) = dst (V (Proc.devRef .tc main_arg1)) := by
  dsimp only [hostOps0]
  after_results <;> rfl
theorem first_pos : after hostOps0 V (Proc.devRef .tc main_v12)
    = cmpf .ogt (degOf (dst (V (Proc.devRef .tc main_arg1)))) (broadcastInDim S50000 ![] Facts₀.bcast_S_S50000 (constant S_ .f32 0x00000000#32)) := by
  dsimp only [hostOps0]
  after_results_simp <;> rfl
theorem first_rsqrt : after hostOps0 V (Proc.devRef .tc main_v13) = Host.rsqrt (degOf (dst (V (Proc.devRef .tc main_arg1)))) := by
  dsimp only [hostOps0]
  after_results_simp <;> rfl
theorem first_zero : after hostOps0 V (Proc.devRef .tc main_cst_2) = constant (F := Ideal) S_ .f32 0x00000000#32 := by
  dsimp only [hostOps0]
  after_results <;> rfl

/-! ## The outlined `where`: the select -/

theorem where_dinv : after hostOps0_1 V (Proc.devRef .tc main_v14)
    = select (V (Proc.devRef .tc main_v12)) (V (Proc.devRef .tc main_v13)) (broadcastInDim S50000 ![] Facts₀.bcast_S_S50000 (id (V (Proc.devRef .tc main_cst_2)))) := by
  dsimp only [hostOps0_1]
  after_results <;> rfl
theorem where_src : after hostOps0_1 V (Proc.devRef .tc main_v3) = V (Proc.devRef .tc main_v3) := by
  dsimp only [hostOps0_1]
  after_results <;> rfl
theorem where_dst : after hostOps0_1 V (Proc.devRef .tc main_v6) = V (Proc.devRef .tc main_v6) := by
  dsimp only [hostOps0_1]
  after_results <;> rfl

/-! ## The third stretch: the edge weights -/

theorem third_norm : after hostOps0_2 V (Proc.devRef .tc main_v29)
    = normFrom (V (Proc.devRef .tc main_v14)) (V (Proc.devRef .tc main_v3)) (V (Proc.devRef .tc main_v6)) := by
  dsimp only [hostOps0_2]
  after_results_simp <;> rfl
theorem third_src : after hostOps0_2 V (Proc.devRef .tc main_v3) = V (Proc.devRef .tc main_v3) := by
  dsimp only [hostOps0_2]
  after_results <;> rfl
theorem third_dst : after hostOps0_2 V (Proc.devRef .tc main_v6) = V (Proc.devRef .tc main_v6) := by
  dsimp only [hostOps0_2]
  after_results <;> rfl

/-! ## The arguments pass through the first three stretches -/

theorem entry_arg0 : after hostOps0_2 (after hostOps0_1 (after hostOps0 V)) (Proc.devRef .tc main_arg0) = V (Proc.devRef .tc main_arg0) := by
  dsimp only [hostOps0, hostOps0_1, hostOps0_2]
  after_results <;> rfl
theorem entry_arg2 : after hostOps0_2 (after hostOps0_1 (after hostOps0 V)) (Proc.devRef .tc main_arg2) = V (Proc.devRef .tc main_arg2) := by
  dsimp only [hostOps0, hostOps0_1, hostOps0_2]
  after_results <;> rfl
theorem entry_arg3 : after hostOps0_2 (after hostOps0_1 (after hostOps0 V)) (Proc.devRef .tc main_arg3) = V (Proc.devRef .tc main_arg3) := by
  dsimp only [hostOps0, hostOps0_1, hostOps0_2]
  after_results <;> rfl
theorem entry_arg4 : after hostOps0_2 (after hostOps0_1 (after hostOps0 V)) (Proc.devRef .tc main_arg4) = V (Proc.devRef .tc main_arg4) := by
  dsimp only [hostOps0, hostOps0_1, hostOps0_2]
  after_results <;> rfl
theorem entry_arg5 : after hostOps0_2 (after hostOps0_1 (after hostOps0 V)) (Proc.devRef .tc main_arg5) = V (Proc.devRef .tc main_arg5) := by
  dsimp only [hostOps0, hostOps0_1, hostOps0_2]
  after_results <;> rfl

/-! ## Between the pipelines: the aggregation and the bias, then the outlined `relu` -/

set_option maxHeartbeats 4000000 in
theorem mid_sum : after hostOps1 V (Proc.devRef .tc main_v46)
    = sum1 (V (Proc.devRef .tc main_v3)) (V (Proc.devRef .tc main_v6)) (V (Proc.devRef .tc main_v29)) (V (Proc.devRef .tc main_arg3)) (V (Proc.devRef .tc main_v30)) := by
  dsimp only [hostOps1]
  after_results_simp <;> rfl
theorem relu_out : after hostOps1_1 V (Proc.devRef .tc main_v47)
    = maximumf (F := Ideal) (s := S50000x256) (φ := .f32) (V (Proc.devRef .tc main_v46))
        (broadcastInDim S50000x256 ![] Facts₀.bcast_S_S50000x256 (constant (F := Ideal) S_ .f32 0x00000000#32)) := by
  dsimp only [hostOps1_1]
  after_results <;> rfl
theorem mid_v3 : after hostOps1_1 (after hostOps1 V) (Proc.devRef .tc main_v3) = V (Proc.devRef .tc main_v3) := by
  dsimp only [hostOps1, hostOps1_1]
  after_results <;> rfl
theorem mid_v6 : after hostOps1_1 (after hostOps1 V) (Proc.devRef .tc main_v6) = V (Proc.devRef .tc main_v6) := by
  dsimp only [hostOps1, hostOps1_1]
  after_results <;> rfl
theorem mid_v29 : after hostOps1_1 (after hostOps1 V) (Proc.devRef .tc main_v29) = V (Proc.devRef .tc main_v29) := by
  dsimp only [hostOps1, hostOps1_1]
  after_results <;> rfl
theorem mid_arg4 : after hostOps1_1 (after hostOps1 V) (Proc.devRef .tc main_arg4) = V (Proc.devRef .tc main_arg4) := by
  dsimp only [hostOps1, hostOps1_1]
  after_results <;> rfl
theorem mid_arg5 : after hostOps1_1 (after hostOps1 V) (Proc.devRef .tc main_arg5) = V (Proc.devRef .tc main_arg5) := by
  dsimp only [hostOps1, hostOps1_1]
  after_results <;> rfl

/-! ## The last stretch: the second aggregation and bias -/

set_option maxHeartbeats 4000000 in
theorem last_out : after hostOps2 V (Proc.devRef .tc main_v64)
    = agg2 (V (Proc.devRef .tc main_v3)) (V (Proc.devRef .tc main_v6)) (V (Proc.devRef .tc main_v29)) (V (Proc.devRef .tc main_arg5)) (V (Proc.devRef .tc main_v48)) := by
  dsimp only [hostOps2]
  after_results_simp <;> rfl

end Cert.Gcn.Stretch

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.Dense1.lean ====
/-
  The first dense transform, read off the kernel's run: after the 25 grid points, the result array of the first
  pipeline holds the plain product of its two operand arrays as the pipeline found them.

  Point `t` stages rows `2000 t … 2000 t + 1999` of the left operand and the whole right operand, multiplies them
  into a zero accumulator and writes the product back as rows `2000 t … 2000 t + 1999` of the result.  Entry `(r, j)`
  of that block is the sum over `q` of `left (2000 t + r, q) · right (q, j)` — the entry `(2000 t + r, j)` of the whole
  product — and the 25 row blocks tile the 50000 rows, so the array ends at the whole product.
-/
import proofs.«181029_j59193239273691_1_alg».proof.Proof.Gen.KernelIdeal.Frame
import proofs.«181029_j59193239273691_1_alg».proof.Proof.Spec
import proofs.«181029_j59193239273691_1_alg».proof.Proof.LibPlainDot
import Idealize.ShloMosaic.Lib.Pipeline.Value

set_option maxRecDepth 16384

noncomputable section

namespace Cert.Gcn.Dense1

open Idealize.ShloMosaic Idealize.ShloMosaic.TcCoe Idealize.ShloMosaic.ValueIdx Idealize.SL.Sem
open Cert.KernelIdeal Cert.KernelIdeal.Gen Cert.KernelIdeal.Facts₀

theorem offsets_zero : (![0, 0] : Fin 2 → Nat) = fun _ => 0 := funext fun a => by fin_cases a <;> rfl

/-- The body's product at an entry of the block: a format change is the identity on extended reals, and the product
    into the zero splat is the plain sum. -/
theorem product_entry (x0 : Vec Ideal S2000x512 .f32) (x1 : Vec Ideal S512x256 .f32) (p : Fin 2000) (j : Fin 256) :
    k0_pay1 (F := Ideal) x0 x1 (ix2 p j) = ∑ q : Fin 512, x0 (ix2 p q) * x1 (ix2 q j) := by
  unfold k0_pay1
  exact Cert.PlainDot.matmul_zero_ix2 (m := 2000) (k := 512) (n := 256) dot_S2000x512_S512x256_S2000x256_1_0_0_1_n_n rfl none
    (truncf .bf16 x0 Facts₀.bitsLt_bf16_f32) (truncf .bf16 x1 Facts₀.bitsLt_bf16_f32) p j

/-- The block indices of the three windows, decided over the grid: the left operand's and the result's row block is the
    point's number, every other block index is zero. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the whole product of the operand arrays. -/
theorem flushed_eq (c : Dev nD) (t : Fin cfg0.N) :
    (dat0 V c).flushed 2 t = ((cfg0.win 2).blk t).view.read (Elt Ideal) (mm (m := 50000) (k := 512) (n := 256) (V c main_arg0) (V c main_arg2)) := by
  show (cfg0.win 2).cut (grid0.coords t) ((dat0 V c).after 2 t) = _
  rw [after0_2]
  unfold out0_2
  rw [View.canon_unit_zero offsets_zero]
  simp only [View.ld_unit_zero (S := S2000x512) offsets_zero, View.ld_unit_zero (S := S512x256) offsets_zero]
  obtain ⟨e0, e1, e2, e3, e4, e5⟩ := block_indices t
  funext y
  obtain ⟨p, j, rfl⟩ : ∃ (p : Fin 2000) (j : Fin 256), y = ix2 p j := ⟨y 0, y 1, eq_ix2 y⟩
  show k0_pay1 (F := Ideal) (iblk0 V c 0 t) (iblk0 V c 1 t) (ix2 p j)
      = mm (m := 50000) (k := 512) (n := 256) (V c main_arg0) (V c main_arg2) (((cfg0.win 2).blk t).view.emb (ix2 p j))
  refine (product_entry (iblk0 V c 0 t) (iblk0 V c 1 t) p j).trans ?_
  unfold mm
  refine Finset.sum_congr rfl fun q _ => ?_
  have hl : ((cfg0.win 0).blk t).view.emb (ix2 p q) = ix2 ((((cfg0.win 2).blk t).view.emb (ix2 p j)) 0) q := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * q.val = q.val; omega
  have hr : ((cfg0.win 1).blk t).view.emb (ix2 q j) = ix2 q ((((cfg0.win 2).blk t).view.emb (ix2 p j)) 1) := by
    funext a; apply Fin.ext
    match a with
    | ⟨0, _⟩ => show win0_1.index t (0 : Fin 2) * 512 + 1 * q.val = q.val; omega
    | ⟨1, _⟩ => show win0_1.index t (1 : Fin 2) * 256 + 1 * j.val = win0_2.index t (1 : Fin 2) * 256 + 1 * j.val; omega
  have hL : iblk0 V c 0 t (ix2 p q) = V c main_arg0 (ix2 ((((cfg0.win 2).blk t).view.emb (ix2 p j)) 0) q) := by
    show V c main_arg0 (((cfg0.win 0).blk t).view.emb (ix2 p q)) = _
    exact congrArg (V c main_arg0) hl
  have hR : iblk0 V c 1 t (ix2 q j) = V c main_arg2 (ix2 q ((((cfg0.win 2).blk t).view.emb (ix2 p j)) 1)) := by
    show V c main_arg2 (((cfg0.win 1).blk t).view.emb (ix2 q j)) = _
    exact congrArg (V c main_arg2) hr
  rw [hL, hR]

/-- An index of the result array is in point `t`'s block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- Every index of the result array is in the block of the point that its row falls to. -/
theorem cover (i : S50000x256.Idx) : ∃ t : Fin cfg0.N, (cfg0.win 2).flush t = true ∧ i ∈ ((cfg0.win 2).blk t).view.set := by
  have hN : grid0.N = 25 := N_0
  have hi0 : (i 0).val < 50000 := (i 0).isLt
  have hi1 : (i 1).val < 256 := (i 1).isLt
  refine ⟨⟨(i 0).val / 2000, by show (i 0).val / 2000 < grid0.N; omega⟩, flush0_2 _, ?_⟩
  rw [mem_blk]
  obtain ⟨-, -, -, -, e4, e5⟩ := block_indices ⟨(i 0).val / 2000, by show (i 0).val / 2000 < grid0.N; omega⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 256 ≤ (i 1).val ∧ (i 1).val < win0_2.index _ (1 : Fin 2) * 256 + 256
    rw [e5]; omega

/-- The result array after the run of the first pipeline: the whole product of its operand arrays. -/
theorem final (c : Dev nD) :
    (dat0 V c).arrAt 2 cfg0.N = mm (m := 50000) (k := 512) (n := 256) (V c main_arg0) (V c main_arg2) :=
  (dat0 V c).arrAt_eq_of_cover 2 _ (fun t _ => flushed_eq V c t) cover

end Cert.Gcn.Dense1

end
-- ==== Proof.Dense2.lean ====
/-
  The second dense transform, read off the kernel's run: after the 25 grid points, the result array of the second
  pipeline holds the plain product of its two operand arrays as the pipeline found them.

  Point `t` stages rows `2000 t … 2000 t + 1999` of the left operand (the first layer's output) and the whole right
  operand, multiplies them into a zero accumulator and writes the product back as rows `2000 t … 2000 t + 1999` of the
  result.  Entry `(r, j)` of that block is entry `(2000 t + r, j)` of the whole product, and the 25 row blocks tile the
  50000 rows, so the array ends at the whole product.
-/
import proofs.«181029_j59193239273691_1_alg».proof.Proof.Gen.KernelIdeal.Frame
import proofs.«181029_j59193239273691_1_alg».proof.Proof.Spec
import proofs.«181029_j59193239273691_1_alg».proof.Proof.LibPlainDot
import Idealize.ShloMosaic.Lib.Pipeline.Value

set_option maxRecDepth 16384

noncomputable section

namespace Cert.Gcn.Dense2

open Idealize.ShloMosaic Idealize.ShloMosaic.TcCoe Idealize.ShloMosaic.ValueIdx Idealize.SL.Sem
open Cert.KernelIdeal Cert.KernelIdeal.Gen Cert.KernelIdeal.Facts₀

theorem offsets_zero : (![0, 0] : Fin 2 → Nat) = fun _ => 0 := funext fun a => by fin_cases a <;> rfl

/-- The body's product at an entry of the block: a cast to the same shape and a format change are the
    identity on extended reals, and the product into the zero splat is the plain sum. -/
theorem product_entry (x0 : Vec Ideal S2000x256 .f32) (x1 : Vec Ideal S256x128 .f32) (p : Fin 2000) (j : Fin 128) :
    k1_pay1 (F := Ideal) x0 x1 (ix2 p j) = ∑ q : Fin 256, x0 (ix2 p q) * x1 (ix2 q j) := by
  unfold k1_pay1
  rw [shapeCast_self]
  exact Cert.PlainDot.matmul_zero_ix2 (m := 2000) (k := 256) (n := 128) dot_S2000x256_S256x128_S2000x128_1_0_0_1_n_n rfl none
    (truncf .bf16 x0 Facts₀.bitsLt_bf16_f32) (truncf .bf16 x1 Facts₀.bitsLt_bf16_f32) p j

/-- The block indices of the three windows, decided over the grid: the left operand's and the result's row block is the
    point's number, every other block index is zero. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point `t` writes back is block `t` of the whole product of the operand arrays. -/
theorem flushed_eq (c : Dev nD) (t : Fin cfg1.N) :
    (dat1 V c).flushed 2 t = ((cfg1.win 2).blk t).view.read (Elt Ideal) (mm (m := 50000) (k := 256) (n := 128) (V c main_v47) (V c main_arg4)) := by
  show (cfg1.win 2).cut (grid1.coords t) ((dat1 V c).after 2 t) = _
  rw [after1_2]
  unfold out1_2
  rw [View.canon_unit_zero offsets_zero]
  simp only [View.ld_unit_zero (S := S2000x256) offsets_zero, View.ld_unit_zero (S := S256x128) offsets_zero]
  obtain ⟨e0, e1, e2, e3, e4, e5⟩ := block_indices t
  funext y
  obtain ⟨p, j, rfl⟩ : ∃ (p : Fin 2000) (j : Fin 128), y = ix2 p j := ⟨y 0, y 1, eq_ix2 y⟩
  show k1_pay1 (F := Ideal) (iblk1 V c 0 t) (iblk1 V c 1 t) (ix2 p j)
      = mm (m := 50000) (k := 256) (n := 128) (V c main_v47) (V c main_arg4) (((cfg1.win 2).blk t).view.emb (ix2 p j))
  refine (product_entry (iblk1 V c 0 t) (iblk1 V c 1 t) p j).trans ?_
  unfold mm
  refine Finset.sum_congr rfl fun q _ => ?_
  have hl : ((cfg1.win 0).blk t).view.emb (ix2 p q) = ix2 ((((cfg1.win 2).blk t).view.emb (ix2 p j)) 0) q := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 256 + 1 * q.val = q.val; omega
  have hr : ((cfg1.win 1).blk t).view.emb (ix2 q j) = ix2 q ((((cfg1.win 2).blk t).view.emb (ix2 p j)) 1) := by
    funext a; apply Fin.ext
    match a with
    | ⟨0, _⟩ => show win1_1.index t (0 : Fin 2) * 256 + 1 * q.val = q.val; omega
    | ⟨1, _⟩ => show win1_1.index t (1 : Fin 2) * 128 + 1 * j.val = win1_2.index t (1 : Fin 2) * 128 + 1 * j.val; omega
  have hL : iblk1 V c 0 t (ix2 p q) = V c main_v47 (ix2 ((((cfg1.win 2).blk t).view.emb (ix2 p j)) 0) q) := by
    show V c main_v47 (((cfg1.win 0).blk t).view.emb (ix2 p q)) = _
    exact congrArg (V c main_v47) hl
  have hR : iblk1 V c 1 t (ix2 q j) = V c main_arg4 (ix2 q ((((cfg1.win 2).blk t).view.emb (ix2 p j)) 1)) := by
    show V c main_arg4 (((cfg1.win 1).blk t).view.emb (ix2 q j)) = _
    exact congrArg (V c main_arg4) hr
  rw [hL, hR]

/-- An index of the result array is in point `t`'s block iff each coordinate is in the block's range on its axis. -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v48).slice (win1_2.rect t)).set ↔ _
  rw [View.set_slice_whole, Rect.mem_set_unit]
  exact Iff.rfl

/-- Every index of the result array is in the block of the point that its row falls to. -/
theorem cover (i : S50000x128.Idx) : ∃ t : Fin cfg1.N, (cfg1.win 2).flush t = true ∧ i ∈ ((cfg1.win 2).blk t).view.set := by
  have hN : grid1.N = 25 := N_1
  have hi0 : (i 0).val < 50000 := (i 0).isLt
  have hi1 : (i 1).val < 128 := (i 1).isLt
  refine ⟨⟨(i 0).val / 2000, by show (i 0).val / 2000 < grid1.N; omega⟩, flush1_2 _, ?_⟩
  rw [mem_blk]
  obtain ⟨-, -, -, -, e4, e5⟩ := block_indices ⟨(i 0).val / 2000, by show (i 0).val / 2000 < grid1.N; omega⟩
  intro a
  match a with
  | ⟨0, _⟩ =>
    show win1_2.index _ (0 : Fin 2) * 2000 ≤ (i 0).val ∧ (i 0).val < win1_2.index _ (0 : Fin 2) * 2000 + 2000
    rw [e4]; show (i 0).val / 2000 * 2000 ≤ (i 0).val ∧ (i 0).val < (i 0).val / 2000 * 2000 + 2000; omega
  | ⟨1, _⟩ =>
    show win1_2.index _ (1 : Fin 2) * 128 ≤ (i 1).val ∧ (i 1).val < win1_2.index _ (1 : Fin 2) * 128 + 128
    rw [e5]; omega

/-- The result array after the run of the second pipeline: the whole product of its operand arrays. -/
theorem final (c : Dev nD) :
    (dat1 V c).arrAt 2 cfg1.N = mm (m := 50000) (k := 256) (n := 128) (V c main_v47) (V c main_arg4) :=
  (dat1 V c).arrAt_eq_of_cover 2 _ (fun t _ => flushed_eq V c t) cover

end Cert.Gcn.Dense2

end
-- ==== Proof.KFold.lean ====
/-
  The idealized kernel's result buffer at the last boundary, as the network of the argument arrays.

  The boundary contents are a fold through the program's eight segments.  Read at the buffers that matter:
  the first three stretches leave the edge lists `src`, `dst` and the edge weights `norm` (functions of the edge table
  alone) and do not touch the arguments; the first pipeline leaves `x · W1` in its result array and every other buffer as
  it was; the next two stretches aggregate it, add the bias and rectify; the second pipeline leaves the product of that
  with `W2`; the last stretch aggregates again and adds the second bias.  A buffer that a later segment reads but does
  not write is carried back, segment by segment, to the segment that wrote it.  Each stretch is read over arbitrary
  entry contents (Stretch.lean) and only instantiated here; the boundary contents themselves are never opened.
-/
import proofs.«181029_j59193239273691_1_alg».proof.Proof.Gen.KernelIdeal.Frame
import proofs.«181029_j59193239273691_1_alg».proof.Proof.Spec
import proofs.«181029_j59193239273691_1_alg».proof.Proof.Stretch
import proofs.«181029_j59193239273691_1_alg».proof.Proof.Dense1
import proofs.«181029_j59193239273691_1_alg».proof.Proof.Dense2

set_option maxRecDepth 16384

noncomputable section

namespace Cert.Gcn.KFold

open Idealize.ShloMosaic Idealize.ShloMosaic.TcCoe Idealize.SL.Sem Idealize.ShloMosaic.StableHlo
open Cert.KernelIdeal Cert.KernelIdeal.Gen Cert.Gcn

variable (m : (ℓ : Loc nD τ sig) → Buf (Elt Ideal) ℓ) (ρ : Dev nD → PrngReg)

/-! ## After the first stretch -/

theorem W1_src (c : Dev nD) : W1 m ρ c (Proc.devRef .tc main_v3) = src (m ((c : Thread nD τ).loc main_arg1)) := Stretch.first_src (W0 m ρ c)
theorem W1_dst (c : Dev nD) : W1 m ρ c (Proc.devRef .tc main_v6) = dst (m ((c : Thread nD τ).loc main_arg1)) := Stretch.first_dst (W0 m ρ c)
theorem W1_pos (c : Dev nD) : W1 m ρ c (Proc.devRef .tc main_v12)
    = cmpf .ogt (degOf (dst (m ((c : Thread nD τ).loc main_arg1)))) (broadcastInDim S50000 ![] Facts₀.bcast_S_S50000 (constant S_ .f32 0x00000000#32)) :=
  Stretch.first_pos (W0 m ρ c)
theorem W1_rsqrt (c : Dev nD) : W1 m ρ c (Proc.devRef .tc main_v13) = Host.rsqrt (degOf (dst (m ((c : Thread nD τ).loc main_arg1)))) := Stretch.first_rsqrt (W0 m ρ c)
theorem W1_zero (c : Dev nD) : W1 m ρ c (Proc.devRef .tc main_cst_2) = constant (F := Ideal) S_ .f32 0x00000000#32 := Stretch.first_zero (W0 m ρ c)

/-! ## After the outlined `where` -/

theorem W2_dinv (c : Dev nD) : W2 m ρ c (Proc.devRef .tc main_v14) = dinvOf (dst (m ((c : Thread nD τ).loc main_arg1))) := by
  refine (Stretch.where_dinv (W1 m ρ c)).trans ?_
  rw [W1_pos, W1_rsqrt, W1_zero]
  rfl
theorem W2_src (c : Dev nD) : W2 m ρ c (Proc.devRef .tc main_v3) = src (m ((c : Thread nD τ).loc main_arg1)) := (Stretch.where_src (W1 m ρ c)).trans (W1_src m ρ c)
theorem W2_dst (c : Dev nD) : W2 m ρ c (Proc.devRef .tc main_v6) = dst (m ((c : Thread nD τ).loc main_arg1)) := (Stretch.where_dst (W1 m ρ c)).trans (W1_dst m ρ c)

/-! ## After the third stretch: the first pipeline's entry -/

theorem W3_norm (c : Dev nD) : W3 m ρ c (Proc.devRef .tc main_v29) = norm (m ((c : Thread nD τ).loc main_arg1)) := by
  refine (Stretch.third_norm (W2 m ρ c)).trans ?_
  rw [W2_dinv, W2_src, W2_dst]
  rfl
theorem W3_src (c : Dev nD) : W3 m ρ c (Proc.devRef .tc main_v3) = src (m ((c : Thread nD τ).loc main_arg1)) := (Stretch.third_src (W2 m ρ c)).trans (W2_src m ρ c)
theorem W3_dst (c : Dev nD) : W3 m ρ c (Proc.devRef .tc main_v6) = dst (m ((c : Thread nD τ).loc main_arg1)) := (Stretch.third_dst (W2 m ρ c)).trans (W2_dst m ρ c)
theorem W3_arg0 (c : Dev nD) : W3 m ρ c (Proc.devRef .tc main_arg0) = (m ((c : Thread nD τ).loc main_arg0)) := Stretch.entry_arg0 (W0 m ρ c)
theorem W3_arg2 (c : Dev nD) : W3 m ρ c (Proc.devRef .tc main_arg2) = (m ((c : Thread nD τ).loc main_arg2)) := Stretch.entry_arg2 (W0 m ρ c)
theorem W3_arg3 (c : Dev nD) : W3 m ρ c (Proc.devRef .tc main_arg3) = (m ((c : Thread nD τ).loc main_arg3)) := Stretch.entry_arg3 (W0 m ρ c)
theorem W3_arg4 (c : Dev nD) : W3 m ρ c (Proc.devRef .tc main_arg4) = (m ((c : Thread nD τ).loc main_arg4)) := Stretch.entry_arg4 (W0 m ρ c)
theorem W3_arg5 (c : Dev nD) : W3 m ρ c (Proc.devRef .tc main_arg5) = (m ((c : Thread nD τ).loc main_arg5)) := Stretch.entry_arg5 (W0 m ρ c)

/-! ## After the first pipeline -/

/-- Its result array: the first dense transform. -/
theorem W4_dense1 (c : Dev nD) : W4 m ρ c (Proc.devRef .tc main_v30) = mm (m := 50000) (k := 512) (n := 256) (m ((c : Thread nD τ).loc main_arg0)) (m ((c : Thread nD τ).loc main_arg2)) := by
  refine (W4_arr m ρ c 2).trans ((Dense1.final (V3 m ρ) c).trans ?_)
  show mm (m := 50000) (k := 512) (n := 256) (W3 m ρ c (Proc.devRef .tc main_arg0)) (W3 m ρ c (Proc.devRef .tc main_arg2)) = _
  rw [W3_arg0, W3_arg2]

theorem W4_src (c : Dev nD) : W4 m ρ c (Proc.devRef .tc main_v3) = src (m ((c : Thread nD τ).loc main_arg1)) := (W4_of_ne m ρ c main_v3 (by decide)).trans (W3_src m ρ c)
theorem W4_dst (c : Dev nD) : W4 m ρ c (Proc.devRef .tc main_v6) = dst (m ((c : Thread nD τ).loc main_arg1)) := (W4_of_ne m ρ c main_v6 (by decide)).trans (W3_dst m ρ c)
theorem W4_norm (c : Dev nD) : W4 m ρ c (Proc.devRef .tc main_v29) = norm (m ((c : Thread nD τ).loc main_arg1)) := (W4_of_ne m ρ c main_v29 (by decide)).trans (W3_norm m ρ c)
theorem W4_arg3 (c : Dev nD) : W4 m ρ c (Proc.devRef .tc main_arg3) = (m ((c : Thread nD τ).loc main_arg3)) := (W4_of_ne m ρ c main_arg3 (by decide)).trans (W3_arg3 m ρ c)
theorem W4_arg4 (c : Dev nD) : W4 m ρ c (Proc.devRef .tc main_arg4) = (m ((c : Thread nD τ).loc main_arg4)) := (W4_of_ne m ρ c main_arg4 (by decide)).trans (W3_arg4 m ρ c)
theorem W4_arg5 (c : Dev nD) : W4 m ρ c (Proc.devRef .tc main_arg5) = (m ((c : Thread nD τ).loc main_arg5)) := (W4_of_ne m ρ c main_arg5 (by decide)).trans (W3_arg5 m ρ c)

/-! ## After the two stretches between the pipelines: the second pipeline's entry -/

/-- The first layer's output. -/
theorem W6_layer1 (c : Dev nD) : W6 m ρ c (Proc.devRef .tc main_v47)
    = layer1 (m ((c : Thread nD τ).loc main_arg1)) (m ((c : Thread nD τ).loc main_arg3)) (mm (m := 50000) (k := 512) (n := 256) (m ((c : Thread nD τ).loc main_arg0)) (m ((c : Thread nD τ).loc main_arg2))) := by
  refine (Stretch.relu_out (W5 m ρ c)).trans ?_
  rw [show W5 m ρ c (Proc.devRef .tc main_v46) = _ from Stretch.mid_sum (W4 m ρ c)]
  rw [W4_src, W4_dst, W4_norm, W4_arg3, W4_dense1]
  rfl

theorem W6_src (c : Dev nD) : W6 m ρ c (Proc.devRef .tc main_v3) = src (m ((c : Thread nD τ).loc main_arg1)) := (Stretch.mid_v3 (W4 m ρ c)).trans (W4_src m ρ c)
theorem W6_dst (c : Dev nD) : W6 m ρ c (Proc.devRef .tc main_v6) = dst (m ((c : Thread nD τ).loc main_arg1)) := (Stretch.mid_v6 (W4 m ρ c)).trans (W4_dst m ρ c)
theorem W6_norm (c : Dev nD) : W6 m ρ c (Proc.devRef .tc main_v29) = norm (m ((c : Thread nD τ).loc main_arg1)) := (Stretch.mid_v29 (W4 m ρ c)).trans (W4_norm m ρ c)
theorem W6_arg4 (c : Dev nD) : W6 m ρ c (Proc.devRef .tc main_arg4) = (m ((c : Thread nD τ).loc main_arg4)) := (Stretch.mid_arg4 (W4 m ρ c)).trans (W4_arg4 m ρ c)
theorem W6_arg5 (c : Dev nD) : W6 m ρ c (Proc.devRef .tc main_arg5) = (m ((c : Thread nD τ).loc main_arg5)) := (Stretch.mid_arg5 (W4 m ρ c)).trans (W4_arg5 m ρ c)

/-! ## After the second pipeline -/

/-- Its result array: the second dense transform. -/
theorem W7_dense2 (c : Dev nD) : W7 m ρ c (Proc.devRef .tc main_v48)
    = mm (m := 50000) (k := 256) (n := 128) (layer1 (m ((c : Thread nD τ).loc main_arg1)) (m ((c : Thread nD τ).loc main_arg3)) (mm (m := 50000) (k := 512) (n := 256) (m ((c : Thread nD τ).loc main_arg0)) (m ((c : Thread nD τ).loc main_arg2)))) (m ((c : Thread nD τ).loc main_arg4)) := by
  refine (W7_arr m ρ c 2).trans ((Dense2.final (V6 m ρ) c).trans ?_)
  show mm (m := 50000) (k := 256) (n := 128) (W6 m ρ c (Proc.devRef .tc main_v47)) (W6 m ρ c (Proc.devRef .tc main_arg4)) = _
  rw [W6_layer1, W6_arg4]

theorem W7_src (c : Dev nD) : W7 m ρ c (Proc.devRef .tc main_v3) = src (m ((c : Thread nD τ).loc main_arg1)) := (W7_of_ne m ρ c main_v3 (by decide)).trans (W6_src m ρ c)
theorem W7_dst (c : Dev nD) : W7 m ρ c (Proc.devRef .tc main_v6) = dst (m ((c : Thread nD τ).loc main_arg1)) := (W7_of_ne m ρ c main_v6 (by decide)).trans (W6_dst m ρ c)
theorem W7_norm (c : Dev nD) : W7 m ρ c (Proc.devRef .tc main_v29) = norm (m ((c : Thread nD τ).loc main_arg1)) := (W7_of_ne m ρ c main_v29 (by decide)).trans (W6_norm m ρ c)
theorem W7_arg5 (c : Dev nD) : W7 m ρ c (Proc.devRef .tc main_arg5) = (m ((c : Thread nD τ).loc main_arg5)) := (W7_of_ne m ρ c main_arg5 (by decide)).trans (W6_arg5 m ρ c)

/-! ## After the last stretch -/

/-- The result buffer at the last boundary is the network of the argument arrays. -/
theorem result_eq (c : Dev nD) : W8 m ρ c (Proc.devRef .tc main_v64) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (Stretch.last_out (W7 m ρ c)).trans ?_
  rw [W7_src, W7_dst, W7_norm, W7_arg5, W7_dense2]
  rfl

end Cert.Gcn.KFold

end
-- ==== Proof.RefNet.lean ====
/-
  The idealized reference's result, as the network of the argument arrays.

  The reference applies, in order, exactly the operations the network is written with — the edge lists, the degrees and
  edge weights (twice: once per layer, the same operations on the same edge table both times), the aggregation, the
  biases, the rectifier — and computes each dense transform by a host `dot_general` contracting the left operand's
  columns with the right operand's rows.  At the ideal instance such a `dot_general` is, entry by entry, the plain sum
  over the contracted axis; everything else is the network's own term.
-/
import proofs.«181029_j59193239273691_1_alg».proof.Proof.RefRun
import proofs.«181029_j59193239273691_1_alg».proof.Proof.Spec
import proofs.«181029_j59193239273691_1_alg».proof.Proof.LibPlainDot

set_option maxRecDepth 16384

noncomputable section

namespace Cert.Gcn.RefNet

open Idealize.ShloMosaic Idealize.ShloMosaic.TcCoe Idealize.ShloMosaic.ValueIdx Idealize.SL.Sem
open Cert.ReferenceIdeal Cert.ReferenceIdeal.Gen Cert.Gcn

/-- The reference's first `dot_general` is the plain product. -/
theorem dot1_eq (l : FVec Ideal S50000x512 .f32) (r : FVec Ideal S512x256 .f32) :
    Host.dotGeneral dot_S50000x512_S512x256_S50000x256_1_0_0_1_n_n none l r = mm (m := 50000) (k := 512) (n := 256) l r := by
  funext i
  obtain ⟨p, j, rfl⟩ : ∃ (p : Fin 50000) (j : Fin 256), i = ix2 p j := ⟨i 0, i 1, eq_ix2 i⟩
  exact Cert.PlainDot.dotGeneral_ix2 (m := 50000) (k := 512) (n := 256) dot_S50000x512_S512x256_S50000x256_1_0_0_1_n_n rfl none l r p j

/-- The reference's second `dot_general` is the plain product. -/
theorem dot2_eq (l : FVec Ideal S50000x256 .f32) (r : FVec Ideal S256x128 .f32) :
    Host.dotGeneral dot_S50000x256_S256x128_S50000x128_1_0_0_1_n_n none l r = mm (m := 50000) (k := 256) (n := 128) l r := by
  funext i
  obtain ⟨p, j, rfl⟩ : ∃ (p : Fin 50000) (j : Fin 128), i = ix2 p j := ⟨i 0, i 1, eq_ix2 i⟩
  exact Cert.PlainDot.dotGeneral_ix2 (m := 50000) (k := 256) (n := 128) dot_S50000x256_S256x128_S50000x128_1_0_0_1_n_n rfl none l r p j

/-- The reference's result term is the network of the argument arrays. -/
theorem res_eq (m : (ℓ : Loc nD τ sig) → Buf (Elt Ideal) ℓ) (c : Dev nD) :
    Cert.ReferenceIdeal.ValueP.res_main_v87 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v87
  rw [dot1_eq, dot2_eq]
  rfl

end Cert.Gcn.RefNet

end
-- ==== Proof.lean ====
/-
  Two graph-convolution layers over 50000 nodes and 850000 edges (800000 given, one self loop per node):

      out = A (relu (A (x · W1) + b1) · W2) + b2,

  where `A` sends a node table to its normalized neighbourhood sums (a gather of rows along the edges' sources, a product
  with the edge weights `deg^(-1/2)(src) · deg^(-1/2)(dst)`, a scatter with addition along the destinations).  The kernel
  computes the two dense transforms `x · W1` and `h · W2` on the matrix unit — 25 row blocks of 2000 rows each, the
  operands changed to a narrower float format first, each block's product accumulated from zero — and everything else
  with host operations; the reference computes the dense transforms with host `dot_general`s and everything else with the
  same host operations (it recomputes the edge weights for the second layer: the same operations on the same edge table).

  At the ideal instance a change of float format is the identity and both matrix products are, entry by entry, the sum
  over the contracted axis of the products of the operands' entries.  So both programs end with the one function `net`
  of the six argument arrays (Spec.lean): the kernel by reading its run boundary by boundary (KRun.lean, KFold.lean),
  each pipeline's result array as the whole product because its 25 row blocks tile the array (Dense1.lean, Dense2.lean);
  the reference by its run's composed term (RefRun.lean, RefNet.lean).  No law of the extended reals beyond the
  reading of the two products is used, and the precondition is never opened.
-/
import proofs.«181029_j59193239273691_1_alg».proof.Defs
import proofs.«181029_j59193239273691_1_alg».proof.Proof.Gen.Kernel
import proofs.«181029_j59193239273691_1_alg».proof.Proof.Gen.Kernel.Skeleton
import proofs.«181029_j59193239273691_1_alg».proof.Proof.Gen.Kernel.Launch
import proofs.«181029_j59193239273691_1_alg».proof.Proof.Gen.Kernel.Points
import proofs.«181029_j59193239273691_1_alg».proof.Proof.Gen.Kernel.Frame
import proofs.«181029_j59193239273691_1_alg».proof.Proof.Gen.KernelIdeal
import proofs.«181029_j59193239273691_1_alg».proof.Proof.Gen.KernelIdeal.Skeleton
import proofs.«181029_j59193239273691_1_alg».proof.Proof.Gen.KernelIdeal.Launch
import proofs.«181029_j59193239273691_1_alg».proof.Proof.Gen.KernelIdeal.Points
import proofs.«181029_j59193239273691_1_alg».proof.Proof.Gen.KernelIdeal.Frame
import proofs.«181029_j59193239273691_1_alg».proof.Proof.Gen.ReferenceIdeal
import proofs.«181029_j59193239273691_1_alg».proof.Proof.Gen.Pre_finite_inputs
import proofs.«181029_j59193239273691_1_alg».proof.Proof.RefRun
import proofs.«181029_j59193239273691_1_alg».proof.Proof.Spec
import proofs.«181029_j59193239273691_1_alg».proof.Proof.KRun
import proofs.«181029_j59193239273691_1_alg».proof.Proof.KFold
import proofs.«181029_j59193239273691_1_alg».proof.Proof.RefNet
import Idealize.ShloMosaic.Adequacy
import Idealize.ShloMosaic.Init

noncomputable section

namespace Cert.Proof

open Idealize.ShloMosaic Idealize.ShloMosaic.TcCoe Idealize.SL.Sem

/-- The word-level kernel runs and gives its arguments back. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both idealized programs end with `net` of the argument arrays, which agree. -/
theorem algebraic : Cert.algebraic_KernelIdeal_ReferenceIdeal := by
  intro m ρ m' ρ' _ hagree
  refine ⟨fun c => Cert.Gcn.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Gcn.KFold.result_eq m ρ c), (h c).2⟩) (Cert.Gcn.KRun.run_value m ρ)
  · refine (θ_run Cert.ReferenceIdeal.defs _ _).mono (fun _ h c => ⟨(h c).1.trans ?_, (h c).2⟩)
      (Cert.ReferenceIdeal.ValueP.run (F := Ideal) m' ρ')
    rw [Cert.Gcn.RefNet.res_eq, (hagree c).1, (hagree c).2.1, (hagree c).2.2.1, (hagree c).2.2.2.1, (hagree c).2.2.2.2.1,
      (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
